-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x128 : Shape := ⟨2, ![4096, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S192 : Shape := ⟨1, ![192]⟩
abbrev S32x4096 : Shape := ⟨2, ![32, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S192 : S_.BroadcastsInDim S192 (![] : Fin 0 → Fin S192.rank)
  reducesTo_S192_S_d0 : S192.ReducesTo [0] S_
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S192 .f32) (main_arg8 : FVec F S32x4096 .f32) (main_arg9 : FVec F S4096 .f32) (main_v33 : IVec S_ 1) : IVec S_ 1 :=
  let main_v34 : FVec F S192 .f32 := Host.absf main_arg7
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  let main_v39 : FVec F S32x4096 .f32 := Host.absf main_arg8
  let main_cst_14 : FVec F S_ .f32 := constant S_ .f32 0x7F800000#32
  let main_v40 : FVec F S32x4096 .f32 := broadcastInDim S32x4096 ![] bcast_S_S32x4096 main_cst_14
  let main_v41 : IVec S32x4096 1 := cmpf .olt main_v39 main_v40
  let main_c_15 : IVec S_ 1 := constantI S_ 1 1#1
  let main_v42 : IVec S_ 1 := (fun x v => Host.reduce IntOp.andi x v reducesTo_S32x4096_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  main_v48

def fn_part1 {F : FTy → Type} [FloatOps F] (main_arg4 : FVec F S64 .f32) (main_arg5 : FVec F S64x32 .f32) (main_arg6 : FVec F S32 .f32) (main_arg7 : FVec F S192 .f32) (main_arg8 : FVec F S32x4096 .f32) (main_arg9 : FVec F S4096 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_v33

def fn {F : FTy → Type} [FloatOps F] (main_arg0 : FVec F S16384x4096 .f32) (main_arg1 : FVec F S4096x128 .f32) (main_arg2 : FVec F S128 .f32) (main_arg3 : FVec F S128x64 .f32) (main_arg4 : FVec F S64 .f32) (main_arg5 : FVec F S64x32 .f32) (main_arg6 : FVec F S32 .f32) (main_arg7 : FVec F S192 .f32) (main_arg8 : FVec F S32x4096 .f32) (main_arg9 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_v13 main_v16
-- ==== Kernel.lean ====
abbrev S16384x4096 : Shape := ⟨2, ![16384, 4096]⟩
abbrev S4096x128 : Shape := ⟨2, ![4096, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S192 : Shape := ⟨1, ![192]⟩
abbrev S32x4096 : Shape := ⟨2, ![32, 4096]⟩
abbrev S4096 : Shape := ⟨1, ![4096]⟩
abbrev S6x32 : Shape := ⟨2, ![6, 32]⟩
abbrev S_ : Shape := ⟨0, ![]⟩
abbrev S1x128 : Shape := ⟨2, ![1, 128]⟩
abbrev S1x64 : Shape := ⟨2, ![1, 64]⟩
abbrev S1x32 : Shape := ⟨2, ![1, 32]⟩
abbrev S1x4096 : Shape := ⟨2, ![1, 4096]⟩
abbrev S512x4096 : Shape := ⟨2, ![512, 4096]⟩
abbrev S512x128 : Shape := ⟨2, ![512, 128]⟩
abbrev S512x64 : Shape := ⟨2, ![512, 64]⟩
abbrev S512x32 : Shape := ⟨2, ![512, 32]⟩
abbrev S32x1024 : Shape := ⟨2, ![32, 1024]⟩
abbrev S1x1024 : Shape := ⟨2, ![1, 1024]⟩
abbrev S512x1024 : Shape := ⟨2, ![512, 1024]⟩

abbrev nBuf : Space → Nat
  | .hbm => 23
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S4096x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S192, .f32⟩
  | .hbm, ⟨8, _⟩ => ⟨S32x4096, .f32⟩
  | .hbm, ⟨9, _⟩ => ⟨S4096, .f32⟩
  | .hbm, ⟨10, _⟩ => ⟨S6x32, .f32⟩
  | .hbm, ⟨11, _⟩ => ⟨S_, .f32⟩
  | .hbm, ⟨12, _⟩ => ⟨S32, .f32⟩
  | .hbm, ⟨13, _⟩ => ⟨S4096x128, .bf16⟩
  | .hbm, ⟨14, _⟩ => ⟨S128x64, .bf16⟩
  | .hbm, ⟨15, _⟩ => ⟨S64x32, .bf16⟩
  | .hbm, ⟨16, _⟩ => ⟨S32x4096, .bf16⟩
  | .hbm, ⟨17, _⟩ => ⟨S1x128, .f32⟩
  | .hbm, ⟨18, _⟩ => ⟨S1x64, .f32⟩
  | .hbm, ⟨19, _⟩ => ⟨S1x32, .f32⟩
  | .hbm, ⟨20, _⟩ => ⟨S1x32, .f32⟩
  | .hbm, ⟨21, _⟩ => ⟨S1x4096, .f32⟩
  | .hbm, ⟨22, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S4096x128, .bf16⟩
  | .local _ .vmem, ⟨3, _⟩ => ⟨S1x128, .f32⟩
  | .local _ .vmem, ⟨4, _⟩ => ⟨S128x64, .bf16⟩
  | .local _ .vmem, ⟨5, _⟩ => ⟨S1x64, .f32⟩
  | .local _ .vmem, ⟨6, _⟩ => ⟨S64x32, .bf16⟩
  | .local _ .vmem, ⟨7, _⟩ => ⟨S1x32, .f32⟩
  | .local _ .vmem, ⟨8, _⟩ => ⟨S1x32, .f32⟩
  | .local _ .vmem, ⟨9, _⟩ => ⟨S32x4096, .bf16⟩
  | .local _ .vmem, ⟨10, _⟩ => ⟨S1x4096, .f32⟩
  | .local _ .vmem, ⟨11, _⟩ => ⟨S512x4096, .f32⟩
  | .local _ .vmem, ⟨12, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S192_S6x32 : S192.ShapeCasts S6x32
  reducesTo_S6x32_S32_d0 : S6x32.ReducesTo [0] S32
  h_S_ : 0 < S_.numel
  bitsLt_bf16_f32 : FTy.bits .bf16 < FTy.bits .f32
  shapeCasts_S128_S1x128 : S128.ShapeCasts S1x128
  shapeCasts_S64_S1x64 : S64.ShapeCasts S1x64
  shapeCasts_S32_S1x32 : S32.ShapeCasts S1x32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x4096_S32x1024_0_0 : ∀ a, (![0, 0] : Fin 2 → Nat) a + S32x1024.size a ≤ S32x4096.size a
  h_S32x1024 : 0 < S32x1024.numel
  shapeCasts_S32x1024_S32x1024 : S32x1024.ShapeCasts S32x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S512x1024 : S1x1024.Broadcasts S512x1024
  inb_S512x4096_S512x1024_0_0 : ∀ a, (![0, 0] : Fin 2 → Nat) a + S512x1024.size a ≤ S512x4096.size a
  h_S512x1024 : 0 < S512x1024.numel
  inb_S32x4096_S32x1024_0_1024 : ∀ a, (![0, 1024] : Fin 2 → Nat) a + S32x1024.size a ≤ S32x4096.size a
  inb_S1x4096_S1x1024_0_1024 : ∀ a, (![0, 1024] : Fin 2 → Nat) a + S1x1024.size a ≤ S1x4096.size a
  inb_S512x4096_S512x1024_0_1024 : ∀ a, (![0, 1024] : Fin 2 → Nat) a + S512x1024.size a ≤ S512x4096.size a
  inb_S32x4096_S32x1024_0_2048 : ∀ a, (![0, 2048] : Fin 2 → Nat) a + S32x1024.size a ≤ S32x4096.size a
  inb_S1x4096_S1x1024_0_2048 : ∀ a, (![0, 2048] : Fin 2 → Nat) a + S1x1024.size a ≤ S1x4096.size a
  inb_S512x4096_S512x1024_0_2048 : ∀ a, (![0, 2048] : Fin 2 → Nat) a + S512x1024.size a ≤ S512x4096.size a
  inb_S32x4096_S32x1024_0_3072 : ∀ a, (![0, 3072] : Fin 2 → Nat) a + S32x1024.size a ≤ S32x4096.size a
  inb_S1x4096_S1x1024_0_3072 : ∀ a, (![0, 3072] : Fin 2 → Nat) a + S1x1024.size a ≤ S1x4096.size a
  inb_S512x4096_S512x1024_0_3072 : ∀ a, (![0, 3072] : Fin 2 → Nat) a + S512x1024.size a ≤ S512x4096.size a
  dot_S512x4096_S4096x128_S512x128_1_0_0_1_n_n_wf : DotDims.WF S512x4096 S4096x128 S512x128 [1] [0] [0] [1] [] []
  dot_S512x128_S128x64_S512x64_1_0_0_1_n_n_wf : DotDims.WF S512x128 S128x64 S512x64 [1] [0] [0] [1] [] []
  dot_S512x64_S64x32_S512x32_1_0_0_1_n_n_wf : DotDims.WF S512x64 S64x32 S512x32 [1] [0] [0] [1] [] []
  dot_S512x32_S32x1024_S512x1024_1_0_0_1_n_n_wf : DotDims.WF S512x32 S32x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .bf16 = 32 ∨ (Rect.block (s := S64x32) S64x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x4096.size a ≤ S32x4096.size a
  hwx0_8 : ∀ i : grid0.Coords, EltTy.bits .bf16 = 32 ∨ (Rect.block (s := S32x4096) S32x4096.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x4096.size a ≤ S1x4096.size a
  hwx0_9 : ∀ i : grid0.Coords, EltTy.bits .f32 = 32 ∨ (Rect.block (s := S1x4096) S1x4096.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x4096.size a ≤ S16384x4096.size a
  hwx0_10 : ∀ i : grid0.Coords, EltTy.bits .f32 = 32 ∨ (Rect.block (s := S16384x4096) S512x4096.size (cc0_transform_10 i) (hinb0_10 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x1024_S512x1024_1_0_0_1_n_n : DotDims S512x32 S32x1024 S512x1024 where
  lhsContracting := [1]
  rhsContracting := [0]
  lhsNonContracting := [0]
  rhsNonContracting := [1]
  lhsBatch := []
  rhsBatch := []
  wf := dot_S512x32_S32x1024_S512x1024_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S32x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S512x4096.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x128 : Shape := ⟨2, ![4096, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S192 : Shape := ⟨1, ![192]⟩
abbrev S32x4096 : Shape := ⟨2, ![32, 4096]⟩
abbrev S4096 : Shape := ⟨1, ![4096]⟩
abbrev S16384x128 : Shape := ⟨2, ![16384, 128]⟩
abbrev S1x128 : Shape := ⟨2, ![1, 128]⟩
abbrev S_ : Shape := ⟨0, ![]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S6x32 : Shape := ⟨2, ![6, 32]⟩
abbrev S1x4096 : Shape := ⟨2, ![1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S192, .f32⟩
  | .hbm, ⟨8, _⟩ => ⟨S32x4096, .f32⟩
  | .hbm, ⟨9, _⟩ => ⟨S4096, .f32⟩
  | .hbm, ⟨10, _⟩ => ⟨S16384x128, .f32⟩
  | .hbm, ⟨11, _⟩ => ⟨S1x128, .f32⟩
  | .hbm, ⟨12, _⟩ => ⟨S16384x128, .f32⟩
  | .hbm, ⟨13, _⟩ => ⟨S16384x128, .f32⟩
  | .hbm, ⟨14, _⟩ => ⟨S_, .f32⟩
  | .hbm, ⟨15, _⟩ => ⟨S16384x128, .f32⟩
  | .hbm, ⟨16, _⟩ => ⟨S16384x128, .f32⟩
  | .hbm, ⟨17, _⟩ => ⟨S16384x64, .f32⟩
  | .hbm, ⟨18, _⟩ => ⟨S1x64, .f32⟩
  | .hbm, ⟨19, _⟩ => ⟨S16384x64, .f32⟩
  | .hbm, ⟨20, _⟩ => ⟨S16384x64, .f32⟩
  | .hbm, ⟨21, _⟩ => ⟨S_, .f32⟩
  | .hbm, ⟨22, _⟩ => ⟨S16384x64, .f32⟩
  | .hbm, ⟨23, _⟩ => ⟨S16384x64, .f32⟩
  | .hbm, ⟨24, _⟩ => ⟨S16384x32, .f32⟩
  | .hbm, ⟨25, _⟩ => ⟨S1x32, .f32⟩
  | .hbm, ⟨26, _⟩ => ⟨S16384x32, .f32⟩
  | .hbm, ⟨27, _⟩ => ⟨S16384x32, .f32⟩
  | .hbm, ⟨28, _⟩ => ⟨S6x32, .f32⟩
  | .hbm, ⟨29, _⟩ => ⟨S_, .f32⟩
  | .hbm, ⟨30, _⟩ => ⟨S32, .f32⟩
  | .hbm, ⟨31, _⟩ => ⟨S1x32, .f32⟩
  | .hbm, ⟨32, _⟩ => ⟨S16384x32, .f32⟩
  | .hbm, ⟨33, _⟩ => ⟨S16384x32, .f32⟩
  | .hbm, ⟨34, _⟩ => ⟨S16384x32, .f32⟩
  | .hbm, ⟨35, _⟩ => ⟨S16384x4096, .f32⟩
  | .hbm, ⟨36, _⟩ => ⟨S1x4096, .f32⟩
  | .hbm, ⟨37, _⟩ => ⟨S16384x4096, .f32⟩
  | .hbm, ⟨38, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  shapeCasts_S192_S6x32 : S192.ShapeCasts S6x32
  reducesTo_S6x32_S32_d0 : S6x32.ReducesTo [0] S32
  h_S_ : 0 < S_.numel
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x128_S16384x128_1_0_0_1_n_n_wf : DotDims.WF S16384x4096 S4096x128 S16384x128 [1] [0] [0] [1] [] []
  dot_S16384x128_S128x64_S16384x64_1_0_0_1_n_n_wf : DotDims.WF S16384x128 S128x64 S16384x64 [1] [0] [0] [1] [] []
  dot_S16384x64_S64x32_S16384x32_1_0_0_1_n_n_wf : DotDims.WF S16384x64 S64x32 S16384x32 [1] [0] [0] [1] [] []
  dot_S16384x32_S32x4096_S16384x4096_1_0_0_1_n_n_wf : DotDims.WF S16384x32 S32x4096 S16384x4096 [1] [0] [0] [1] [] []

variable [Facts₀]

def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x4096_S16384x4096_1_0_0_1_n_n : DotDims S16384x32 S32x4096 S16384x4096 where
  lhsContracting := [1]
  rhsContracting := [0]
  lhsNonContracting := [0]
  rhsNonContracting := [1]
  lhsBatch := []
  rhsBatch := []
  wf := dot_S16384x32_S32x4096_S16384x4096_1_0_0_1_n_n_wf

class Facts : Prop extends Facts₀ where

variable [Facts]
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.RowNetwork.lean ====
/-
  One row of the autoencoder, as a function on the extended reals.

  A row `v` of the input (4096 numbers) goes through three dense layers — `dense W b v j = (∑ a, v a · W a j) + b j` —
  the first two followed by the rectifier `max · 0`; the third layer's 32 outputs are shifted by an offset vector
  and sent through the cosine (the latent code); one more dense layer maps the code back to 4096 numbers. Each
  sum ranges over one whole axis once, so nothing here depends on the order of summation or on finiteness of
  the entries. The zero of the rectifier is kept as the f32 word of `0.0`: both programs compare against that
  word, so it is never evaluated.
-/
import Idealize.ShloMosaic.PureOps.Ideal

noncomputable section

namespace Cert.RowNetwork

open Idealize.ShloMosaic

/-- Unit `j` of a dense layer: the row times column `j` of the weights, plus the bias. -/
def dense {n k : ℕ} (W : Fin n → Fin k → EReal) (b : Fin k → EReal) (v : Fin n → EReal) (j : Fin k) : EReal :=
  (∑ a : Fin n, v a * W a j) + b j

/-- The rectifier: the larger of a value and the f32 word of zero. -/
def relu (z : EReal) : EReal := max z (Ideal.ofBits .f32 0x00000000#32)

/-- The latent code of a row: `cos ((relu (relu (v·W1 + b1)·W2 + b2))·W3 + b3 + off)`, unit by unit. -/
def latent (W1 : Fin 4096 → Fin 128 → EReal) (b1 : Fin 128 → EReal) (W2 : Fin 128 → Fin 64 → EReal) (b2 : Fin 64 → EReal)
    (W3 : Fin 64 → Fin 32 → EReal) (b3 : Fin 32 → EReal) (off : Fin 32 → EReal) (v : Fin 4096 → EReal) (k : Fin 32) : EReal :=
  Ideal.cos (dense W3 b3 (fun c => relu (dense W2 b2 (fun b => relu (dense W1 b1 v b)) c)) k + off k)

/-- The reconstruction of a row: the latent code through the decoding layer, `latent · Wd + bd`. -/
def recon (W1 : Fin 4096 → Fin 128 → EReal) (b1 : Fin 128 → EReal) (W2 : Fin 128 → Fin 64 → EReal) (b2 : Fin 64 → EReal)
    (W3 : Fin 64 → Fin 32 → EReal) (b3 : Fin 32 → EReal) (off : Fin 32 → EReal)
    (Wd : Fin 32 → Fin 4096 → EReal) (bd : Fin 4096 → EReal) (v : Fin 4096 → EReal) (j : Fin 4096) : EReal :=
  dense Wd bd (latent W1 b1 W2 b2 W3 b3 off v) j

end Cert.RowNetwork

end
-- ==== Proof.KernelPayloads.lean ====
/-
  The kernel body's stored values, read at an index of the block.

  The body works on a block of 512 rows. Its matrix products go into a zero accumulator, so entry `(p, j)` of each
  is the plain sum `∑ x, lhs (p, x) · w (x, j)` over the contracted axis; a bias arrives as a `[1, k]` row spread over
  the 512 rows, so at `(p, j)` it is the row's entry `j`; narrowing to bf16 and back changes nothing on the extended
  reals; the rectifier and the cosine act entry by entry. Hence row `p` of the latent code the body computes is
  `RowNetwork.latent` of row `p` of the input block, and entry `(p, j)` of a decoded chunk — the code times a
  1024-column slab of the decoding weights, plus the matching slab of the decoding bias — is one dense layer on
  that code.
-/
import proofs.«174179_j65481071396601_2_alg».proof.Proof.Gen.KernelIdeal.Skeleton
import proofs.«174179_j65481071396601_2_alg».proof.Proof.LibRowColDot
import proofs.«174179_j65481071396601_2_alg».proof.Proof.RowNetwork
import Idealize.ShloMosaic.Lib.ValueIdx
import Idealize.ShloMosaic.Lib.ValueLayout
import Idealize.ShloMosaic.Lib.Pipeline.Value

noncomputable section

namespace Cert.KernelIdeal.Payloads

open Cert.KernelIdeal Cert.KernelIdeal.Gen Idealize.ShloMosaic Idealize.ShloMosaic.ValueIdx

/-! ## The four matrix products as sums over the contracted axis -/

/-- The input block times the first weights, at `(p, j)`: the sum over the 4096 input coordinates. -/
theorem matmul_first (lhs : FVec Ideal S512x4096 .bf16) (w : FVec Ideal S4096x128 .bf16) (p : Fin 512) (j : Fin 128) :
    matmul dot_S512x4096_S4096x128_S512x128_1_0_0_1_n_n none lhs w (constant S512x128 .f32 0x00000000#32) (ix2 p j)
      = ∑ x : Fin 4096, lhs (ix2 p x) * w (ix2 x j) :=
  RowColDot.matmul_rowcol dot_S512x4096_S4096x128_S512x128_1_0_0_1_n_n rfl rfl rfl rfl
    (fun i q => by
      unfold DotDims.lhsIdx
      rw [dif_neg (show ¬(0 : Fin S512x4096.rank) ∈ dot_S512x4096_S4096x128_S512x128_1_0_0_1_n_n.lhsBatch by decide),
        dif_pos (show (0 : Fin S512x4096.rank) ∈ dot_S512x4096_S4096x128_S512x128_1_0_0_1_n_n.lhsNonContracting by decide)]
      rfl)
    (fun i q => by
      unfold DotDims.rhsIdx
      rw [dif_neg (show ¬(1 : Fin S4096x128.rank) ∈ dot_S512x4096_S4096x128_S512x128_1_0_0_1_n_n.rhsBatch by decide),
        dif_pos (show (1 : Fin S4096x128.rank) ∈ dot_S512x4096_S4096x128_S512x128_1_0_0_1_n_n.rhsNonContracting by decide)]
      rfl)
    none lhs w (ix2 p j)

/-- The first hidden block times the second weights, at `(p, j)`: the sum over the 128 hidden units. -/
theorem matmul_second (lhs : FVec Ideal S512x128 .bf16) (w : FVec Ideal S128x64 .bf16) (p : Fin 512) (j : Fin 64) :
    matmul dot_S512x128_S128x64_S512x64_1_0_0_1_n_n none lhs w (constant S512x64 .f32 0x00000000#32) (ix2 p j)
      = ∑ x : Fin 128, lhs (ix2 p x) * w (ix2 x j) :=
  RowColDot.matmul_rowcol dot_S512x128_S128x64_S512x64_1_0_0_1_n_n rfl rfl rfl rfl
    (fun i q => by
      unfold DotDims.lhsIdx
      rw [dif_neg (show ¬(0 : Fin S512x128.rank) ∈ dot_S512x128_S128x64_S512x64_1_0_0_1_n_n.lhsBatch by decide),
        dif_pos (show (0 : Fin S512x128.rank) ∈ dot_S512x128_S128x64_S512x64_1_0_0_1_n_n.lhsNonContracting by decide)]
      rfl)
    (fun i q => by
      unfold DotDims.rhsIdx
      rw [dif_neg (show ¬(1 : Fin S128x64.rank) ∈ dot_S512x128_S128x64_S512x64_1_0_0_1_n_n.rhsBatch by decide),
        dif_pos (show (1 : Fin S128x64.rank) ∈ dot_S512x128_S128x64_S512x64_1_0_0_1_n_n.rhsNonContracting by decide)]
      rfl)
    none lhs w (ix2 p j)

/-- The second hidden block times the third weights, at `(p, j)`: the sum over the 64 hidden units. -/
theorem matmul_third (lhs : FVec Ideal S512x64 .bf16) (w : FVec Ideal S64x32 .bf16) (p : Fin 512) (j : Fin 32) :
    matmul dot_S512x64_S64x32_S512x32_1_0_0_1_n_n none lhs w (constant S512x32 .f32 0x00000000#32) (ix2 p j)
      = ∑ x : Fin 64, lhs (ix2 p x) * w (ix2 x j) :=
  RowColDot.matmul_rowcol dot_S512x64_S64x32_S512x32_1_0_0_1_n_n rfl rfl rfl rfl
    (fun i q => by
      unfold DotDims.lhsIdx
      rw [dif_neg (show ¬(0 : Fin S512x64.rank) ∈ dot_S512x64_S64x32_S512x32_1_0_0_1_n_n.lhsBatch by decide),
        dif_pos (show (0 : Fin S512x64.rank) ∈ dot_S512x64_S64x32_S512x32_1_0_0_1_n_n.lhsNonContracting by decide)]
      rfl)
    (fun i q => by
      unfold DotDims.rhsIdx
      rw [dif_neg (show ¬(1 : Fin S64x32.rank) ∈ dot_S512x64_S64x32_S512x32_1_0_0_1_n_n.rhsBatch by decide),
        dif_pos (show (1 : Fin S64x32.rank) ∈ dot_S512x64_S64x32_S512x32_1_0_0_1_n_n.rhsNonContracting by decide)]
      rfl)
    none lhs w (ix2 p j)

/-- The latent block times a 1024-column slab of the decoding weights, at `(p, j)`: the sum over the 32 latent units. -/
theorem matmul_decode (lhs : FVec Ideal S512x32 .bf16) (w : FVec Ideal S32x1024 .bf16) (p : Fin 512) (j : Fin 1024) :
    matmul dot_S512x32_S32x1024_S512x1024_1_0_0_1_n_n none lhs w (constant S512x1024 .f32 0x00000000#32) (ix2 p j)
      = ∑ x : Fin 32, lhs (ix2 p x) * w (ix2 x j) :=
  RowColDot.matmul_rowcol dot_S512x32_S32x1024_S512x1024_1_0_0_1_n_n rfl rfl rfl rfl
    (fun i q => by
      unfold DotDims.lhsIdx
      rw [dif_neg (show ¬(0 : Fin S512x32.rank) ∈ dot_S512x32_S32x1024_S512x1024_1_0_0_1_n_n.lhsBatch by decide),
        dif_pos (show (0 : Fin S512x32.rank) ∈ dot_S512x32_S32x1024_S512x1024_1_0_0_1_n_n.lhsNonContracting by decide)]
      rfl)
    (fun i q => by
      unfold DotDims.rhsIdx
      rw [dif_neg (show ¬(1 : Fin S32x1024.rank) ∈ dot_S512x32_S32x1024_S512x1024_1_0_0_1_n_n.rhsBatch by decide),
        dif_pos (show (1 : Fin S32x1024.rank) ∈ dot_S512x32_S32x1024_S512x1024_1_0_0_1_n_n.rhsNonContracting by decide)]
      rfl)
    none lhs w (ix2 p j)

/-! ## The latent code and a decoded chunk, entry by entry -/

/-- Row `p` of the latent block the body computes is the latent code of row `p` of the input block. -/
theorem latent_apply (x0 : FVec Ideal S512x4096 .f32) (w1 : FVec Ideal S4096x128 .bf16) (c1 : FVec Ideal S1x128 .f32)
    (w2 : FVec Ideal S128x64 .bf16) (c2 : FVec Ideal S1x64 .f32) (w3 : FVec Ideal S64x32 .bf16) (c3 : FVec Ideal S1x32 .f32)
    (o : FVec Ideal S1x32 .f32) (p : Fin 512) (k : Fin 32) :
    k0_pay1 (F := Ideal) x0 w1 c1 w2 c2 w3 c3 o (ix2 p k)
      = RowNetwork.latent (fun a b => w1 (ix2 a b)) (fun b => c1 (ix2 (0 : Fin 1) b)) (fun a b => w2 (ix2 a b))
          (fun b => c2 (ix2 (0 : Fin 1) b)) (fun a b => w3 (ix2 a b)) (fun b => c3 (ix2 (0 : Fin 1) b))
          (fun b => o (ix2 (0 : Fin 1) b)) (fun a => x0 (ix2 p a)) k := by
  unfold k0_pay1
  simp only [shapeCast_self, truncf_apply, Idealize.ShloMosaic.cos, Ideal.cos_def, addf_apply, maximumf_apply, broadcast_apply,
    matmul_first, matmul_second, matmul_third, broadcastTo_1b_ab_apply, RowNetwork.latent, RowNetwork.dense, RowNetwork.relu]
  rfl

/-- Entry `(p, j)` of the first decoded chunk: one dense layer on row `p` of the latent block, with the slab's weights and bias. -/
theorem chunk2_apply (q : FVec Ideal S512x32 .bf16) (wd : FVec Ideal S32x1024 .bf16) (cd : FVec Ideal S1x1024 .f32)
    (p : Fin 512) (j : Fin 1024) :
    k0_pay2 (F := Ideal) q wd cd (ix2 p j)
      = RowNetwork.dense (fun a b => wd (ix2 a b)) (fun b => cd (ix2 (0 : Fin 1) b)) (fun a => q (ix2 p a)) j := by
  unfold k0_pay2
  simp only [shapeCast_self, addf_apply, matmul_decode, broadcastTo_1b_ab_apply, RowNetwork.dense]

/-- Entry `(p, j)` of the second decoded chunk: one dense layer on row `p` of the latent block, with the slab's weights and bias. -/
theorem chunk3_apply (q : FVec Ideal S512x32 .bf16) (wd : FVec Ideal S32x1024 .bf16) (cd : FVec Ideal S1x1024 .f32)
    (p : Fin 512) (j : Fin 1024) :
    k0_pay3 (F := Ideal) q wd cd (ix2 p j)
      = RowNetwork.dense (fun a b => wd (ix2 a b)) (fun b => cd (ix2 (0 : Fin 1) b)) (fun a => q (ix2 p a)) j := by
  unfold k0_pay3
  simp only [shapeCast_self, addf_apply, matmul_decode, broadcastTo_1b_ab_apply, RowNetwork.dense]

/-- Entry `(p, j)` of the third decoded chunk: one dense layer on row `p` of the latent block, with the slab's weights and bias. -/
theorem chunk4_apply (q : FVec Ideal S512x32 .bf16) (wd : FVec Ideal S32x1024 .bf16) (cd : FVec Ideal S1x1024 .f32)
    (p : Fin 512) (j : Fin 1024) :
    k0_pay4 (F := Ideal) q wd cd (ix2 p j)
      = RowNetwork.dense (fun a b => wd (ix2 a b)) (fun b => cd (ix2 (0 : Fin 1) b)) (fun a => q (ix2 p a)) j := by
  unfold k0_pay4
  simp only [shapeCast_self, addf_apply, matmul_decode, broadcastTo_1b_ab_apply, RowNetwork.dense]

/-- Entry `(p, j)` of the fourth decoded chunk: one dense layer on row `p` of the latent block, with the slab's weights and bias. -/
theorem chunk5_apply (q : FVec Ideal S512x32 .bf16) (wd : FVec Ideal S32x1024 .bf16) (cd : FVec Ideal S1x1024 .f32)
    (p : Fin 512) (j : Fin 1024) :
    k0_pay5 (F := Ideal) q wd cd (ix2 p j)
      = RowNetwork.dense (fun a b => wd (ix2 a b)) (fun b => cd (ix2 (0 : Fin 1) b)) (fun a => q (ix2 p a)) j := by
  unfold k0_pay5
  simp only [shapeCast_self, addf_apply, matmul_decode, broadcastTo_1b_ab_apply, RowNetwork.dense]

end Cert.KernelIdeal.Payloads

end
-- ==== Proof.KernelBlock.lean ====
/-
  What the kernel body leaves in its output buffer, as one function of the ten input blocks.

  The body stores the 512 × 4096 output block as four 512 × 1024 column pieces. Every piece is the same function
  of its position: entry `(p, j)` of the block is the reconstruction (`RowNetwork.recon`) of row `p` of the input
  block at output coordinate `j`, computed with the weight and bias blocks the body loaded whole — the piece at
  column offset `o` only reads columns `o … o + 1023` of the decoding weights and bias. Since the four pieces tile
  the buffer, the buffer after the body is that one function.
-/
import proofs.«174179_j65481071396601_2_alg».proof.Proof.Gen.KernelIdeal.Frame
import proofs.«174179_j65481071396601_2_alg».proof.Proof.KernelPayloads

set_option maxRecDepth 16384

noncomputable section

namespace Cert.KernelIdeal.Block

open Cert.KernelIdeal Cert.KernelIdeal.Gen Idealize.ShloMosaic Idealize.ShloMosaic.ValueIdx

/-- The two zero offsets of a whole-buffer rectangle, as the constant function. -/
theorem hz : (![0, 0] : Fin 2 → Nat) = fun _ => 0 := funext fun a => by fin_cases a <;> rfl

/-- Entry `(p, j)` of the output block: the reconstruction of row `p` of the input block, at coordinate `j`. The
    biases and the offset are `[1, k]` rows; the weights are read as `(input unit, output unit)`. -/
def entry (x0 : FVec Ideal S512x4096 .f32) (x1 : FVec Ideal S4096x128 .bf16) (x2 : FVec Ideal S1x128 .f32)
    (x3 : FVec Ideal S128x64 .bf16) (x4 : FVec Ideal S1x64 .f32) (x5 : FVec Ideal S64x32 .bf16) (x6 : FVec Ideal S1x32 .f32)
    (x7 : FVec Ideal S1x32 .f32) (x8 : FVec Ideal S32x4096 .bf16) (x9 : FVec Ideal S1x4096 .f32) (p : Fin 512) (j : Fin 4096) : EReal :=
  RowNetwork.recon (fun a b => x1 (ix2 a b)) (fun b => x2 (ix2 (0 : Fin 1) b)) (fun a b => x3 (ix2 a b))
    (fun b => x4 (ix2 (0 : Fin 1) b)) (fun a b => x5 (ix2 a b)) (fun b => x6 (ix2 (0 : Fin 1) b))
    (fun b => x7 (ix2 (0 : Fin 1) b)) (fun a b => x8 (ix2 a b)) (fun b => x9 (ix2 (0 : Fin 1) b))
    (fun a => x0 (ix2 p a)) j

/-- The output block as a function of its index. -/
def blockOut (x0 : FVec Ideal S512x4096 .f32) (x1 : FVec Ideal S4096x128 .bf16) (x2 : FVec Ideal S1x128 .f32)
    (x3 : FVec Ideal S128x64 .bf16) (x4 : FVec Ideal S1x64 .f32) (x5 : FVec Ideal S64x32 .bf16) (x6 : FVec Ideal S1x32 .f32)
    (x7 : FVec Ideal S1x32 .f32) (x8 : FVec Ideal S32x4096 .bf16) (x9 : FVec Ideal S1x4096 .f32) : FVec Ideal S512x4096 .f32 :=
  fun y => entry x0 x1 x2 x3 x4 x5 x6 x7 x8 x9 (y 0) (y 1)

/-- The store at column offset 0: its value at a local index is the block function at the index the store's
    rectangle places it at (same row, column 0 further on). -/
theorem piece2_apply (x0 : FVec Ideal S512x4096 .f32) (x1 : FVec Ideal S4096x128 .bf16) (x2 : FVec Ideal S1x128 .f32)
    (x3 : FVec Ideal S128x64 .bf16) (x4 : FVec Ideal S1x64 .f32) (x5 : FVec Ideal S64x32 .bf16) (x6 : FVec Ideal S1x32 .f32)
    (x7 : FVec Ideal S1x32 .f32) (x8 : FVec Ideal S32x4096 .bf16) (x9 : FVec Ideal S1x4096 .f32) (x : r0_9.shape.Idx) :
    k0_pay2 (k0_pay1 (View.ld x0 r0_0) (View.ld x1 r0_1) (View.ld x2 r0_2) (View.ld x3 r0_3) (View.ld x4 r0_4) (View.ld x5 r0_5) (View.ld x6 r0_6) (View.ld x7 r0_6)) (View.ld x8 r0_7) (View.ld x9 r0_8) x
      = blockOut x0 x1 x2 x3 x4 x5 x6 x7 x8 x9 (r0_9.emb x) := by
  obtain ⟨p, j, rfl⟩ : ∃ (p : Fin 512) (j : Fin 1024), x = ix2 p j := ⟨x 0, x 1, eq_ix2 x⟩
  simp only [View.ld_unit_zero (S := S512x4096) hz, View.ld_unit_zero (S := S4096x128) hz, View.ld_unit_zero (S := S1x128) hz,
    View.ld_unit_zero (S := S128x64) hz, View.ld_unit_zero (S := S1x64) hz, View.ld_unit_zero (S := S64x32) hz,
    View.ld_unit_zero (S := S1x32) hz]
  have e0 : (r0_9.emb (ix2 p j)) 0 = p := Fin.ext (by show 0 + 1 * p.val = p.val; omega)
  have ew : ∀ a : Fin 32, r0_7.idx (ix2 a j) = ix2 a ((r0_9.emb (ix2 p j)) 1) := fun a => funext fun d => Fin.ext (by
    match d with
    | ⟨0, _⟩ => show 0 + 1 * a.val = a.val; omega
    | ⟨1, _⟩ => rfl)
  have eb : r0_8.idx (ix2 (0 : Fin 1) j) = ix2 (0 : Fin 1) ((r0_9.emb (ix2 p j)) 1) := funext fun d => Fin.ext (by
    match d with
    | ⟨0, _⟩ => rfl
    | ⟨1, _⟩ => rfl)
  rw [Payloads.chunk2_apply]
  simp only [Payloads.latent_apply]
  unfold blockOut entry RowNetwork.recon RowNetwork.dense
  rw [e0]
  dsimp only [View.ld]
  rw [eb]
  simp only [ew]
  rfl

/-- The store at column offset 1024: its value at a local index is the block function at the index the store's
    rectangle places it at (same row, column 1024 further on). -/
theorem piece3_apply (x0 : FVec Ideal S512x4096 .f32) (x1 : FVec Ideal S4096x128 .bf16) (x2 : FVec Ideal S1x128 .f32)
    (x3 : FVec Ideal S128x64 .bf16) (x4 : FVec Ideal S1x64 .f32) (x5 : FVec Ideal S64x32 .bf16) (x6 : FVec Ideal S1x32 .f32)
    (x7 : FVec Ideal S1x32 .f32) (x8 : FVec Ideal S32x4096 .bf16) (x9 : FVec Ideal S1x4096 .f32) (x : r0_12.shape.Idx) :
    k0_pay3 (k0_pay1 (View.ld x0 r0_0) (View.ld x1 r0_1) (View.ld x2 r0_2) (View.ld x3 r0_3) (View.ld x4 r0_4) (View.ld x5 r0_5) (View.ld x6 r0_6) (View.ld x7 r0_6)) (View.ld x8 r0_10) (View.ld x9 r0_11) x
      = blockOut x0 x1 x2 x3 x4 x5 x6 x7 x8 x9 (r0_12.emb x) := by
  obtain ⟨p, j, rfl⟩ : ∃ (p : Fin 512) (j : Fin 1024), x = ix2 p j := ⟨x 0, x 1, eq_ix2 x⟩
  simp only [View.ld_unit_zero (S := S512x4096) hz, View.ld_unit_zero (S := S4096x128) hz, View.ld_unit_zero (S := S1x128) hz,
    View.ld_unit_zero (S := S128x64) hz, View.ld_unit_zero (S := S1x64) hz, View.ld_unit_zero (S := S64x32) hz,
    View.ld_unit_zero (S := S1x32) hz]
  have e0 : (r0_12.emb (ix2 p j)) 0 = p := Fin.ext (by show 0 + 1 * p.val = p.val; omega)
  have ew : ∀ a : Fin 32, r0_10.idx (ix2 a j) = ix2 a ((r0_12.emb (ix2 p j)) 1) := fun a => funext fun d => Fin.ext (by
    match d with
    | ⟨0, _⟩ => show 0 + 1 * a.val = a.val; omega
    | ⟨1, _⟩ => rfl)
  have eb : r0_11.idx (ix2 (0 : Fin 1) j) = ix2 (0 : Fin 1) ((r0_12.emb (ix2 p j)) 1) := funext fun d => Fin.ext (by
    match d with
    | ⟨0, _⟩ => rfl
    | ⟨1, _⟩ => rfl)
  rw [Payloads.chunk3_apply]
  simp only [Payloads.latent_apply]
  unfold blockOut entry RowNetwork.recon RowNetwork.dense
  rw [e0]
  dsimp only [View.ld]
  rw [eb]
  simp only [ew]
  rfl

/-- The store at column offset 2048: its value at a local index is the block function at the index the store's
    rectangle places it at (same row, column 2048 further on). -/
theorem piece4_apply (x0 : FVec Ideal S512x4096 .f32) (x1 : FVec Ideal S4096x128 .bf16) (x2 : FVec Ideal S1x128 .f32)
    (x3 : FVec Ideal S128x64 .bf16) (x4 : FVec Ideal S1x64 .f32) (x5 : FVec Ideal S64x32 .bf16) (x6 : FVec Ideal S1x32 .f32)
    (x7 : FVec Ideal S1x32 .f32) (x8 : FVec Ideal S32x4096 .bf16) (x9 : FVec Ideal S1x4096 .f32) (x : r0_15.shape.Idx) :
    k0_pay4 (k0_pay1 (View.ld x0 r0_0) (View.ld x1 r0_1) (View.ld x2 r0_2) (View.ld x3 r0_3) (View.ld x4 r0_4) (View.ld x5 r0_5) (View.ld x6 r0_6) (View.ld x7 r0_6)) (View.ld x8 r0_13) (View.ld x9 r0_14) x
      = blockOut x0 x1 x2 x3 x4 x5 x6 x7 x8 x9 (r0_15.emb x) := by
  obtain ⟨p, j, rfl⟩ : ∃ (p : Fin 512) (j : Fin 1024), x = ix2 p j := ⟨x 0, x 1, eq_ix2 x⟩
  simp only [View.ld_unit_zero (S := S512x4096) hz, View.ld_unit_zero (S := S4096x128) hz, View.ld_unit_zero (S := S1x128) hz,
    View.ld_unit_zero (S := S128x64) hz, View.ld_unit_zero (S := S1x64) hz, View.ld_unit_zero (S := S64x32) hz,
    View.ld_unit_zero (S := S1x32) hz]
  have e0 : (r0_15.emb (ix2 p j)) 0 = p := Fin.ext (by show 0 + 1 * p.val = p.val; omega)
  have ew : ∀ a : Fin 32, r0_13.idx (ix2 a j) = ix2 a ((r0_15.emb (ix2 p j)) 1) := fun a => funext fun d => Fin.ext (by
    match d with
    | ⟨0, _⟩ => show 0 + 1 * a.val = a.val; omega
    | ⟨1, _⟩ => rfl)
  have eb : r0_14.idx (ix2 (0 : Fin 1) j) = ix2 (0 : Fin 1) ((r0_15.emb (ix2 p j)) 1) := funext fun d => Fin.ext (by
    match d with
    | ⟨0, _⟩ => rfl
    | ⟨1, _⟩ => rfl)
  rw [Payloads.chunk4_apply]
  simp only [Payloads.latent_apply]
  unfold blockOut entry RowNetwork.recon RowNetwork.dense
  rw [e0]
  dsimp only [View.ld]
  rw [eb]
  simp only [ew]
  rfl

/-- The store at column offset 3072: its value at a local index is the block function at the index the store's
    rectangle places it at (same row, column 3072 further on). -/
theorem piece5_apply (x0 : FVec Ideal S512x4096 .f32) (x1 : FVec Ideal S4096x128 .bf16) (x2 : FVec Ideal S1x128 .f32)
    (x3 : FVec Ideal S128x64 .bf16) (x4 : FVec Ideal S1x64 .f32) (x5 : FVec Ideal S64x32 .bf16) (x6 : FVec Ideal S1x32 .f32)
    (x7 : FVec Ideal S1x32 .f32) (x8 : FVec Ideal S32x4096 .bf16) (x9 : FVec Ideal S1x4096 .f32) (x : r0_18.shape.Idx) :
    k0_pay5 (k0_pay1 (View.ld x0 r0_0) (View.ld x1 r0_1) (View.ld x2 r0_2) (View.ld x3 r0_3) (View.ld x4 r0_4) (View.ld x5 r0_5) (View.ld x6 r0_6) (View.ld x7 r0_6)) (View.ld x8 r0_16) (View.ld x9 r0_17) x
      = blockOut x0 x1 x2 x3 x4 x5 x6 x7 x8 x9 (r0_18.emb x) := by
  obtain ⟨p, j, rfl⟩ : ∃ (p : Fin 512) (j : Fin 1024), x = ix2 p j := ⟨x 0, x 1, eq_ix2 x⟩
  simp only [View.ld_unit_zero (S := S512x4096) hz, View.ld_unit_zero (S := S4096x128) hz, View.ld_unit_zero (S := S1x128) hz,
    View.ld_unit_zero (S := S128x64) hz, View.ld_unit_zero (S := S1x64) hz, View.ld_unit_zero (S := S64x32) hz,
    View.ld_unit_zero (S := S1x32) hz]
  have e0 : (r0_18.emb (ix2 p j)) 0 = p := Fin.ext (by show 0 + 1 * p.val = p.val; omega)
  have ew : ∀ a : Fin 32, r0_16.idx (ix2 a j) = ix2 a ((r0_18.emb (ix2 p j)) 1) := fun a => funext fun d => Fin.ext (by
    match d with
    | ⟨0, _⟩ => show 0 + 1 * a.val = a.val; omega
    | ⟨1, _⟩ => rfl)
  have eb : r0_17.idx (ix2 (0 : Fin 1) j) = ix2 (0 : Fin 1) ((r0_18.emb (ix2 p j)) 1) := funext fun d => Fin.ext (by
    match d with
    | ⟨0, _⟩ => rfl
    | ⟨1, _⟩ => rfl)
  rw [Payloads.chunk5_apply]
  simp only [Payloads.latent_apply]
  unfold blockOut entry RowNetwork.recon RowNetwork.dense
  rw [e0]
  dsimp only [View.ld]
  rw [eb]
  simp only [ew]
  rfl

/-- The output buffer after the body is the block function: its four column pieces each agree with it, and they tile
    the buffer. -/
theorem out_eq (x0 : FVec Ideal S512x4096 .f32) (x1 : FVec Ideal S4096x128 .bf16) (x2 : FVec Ideal S1x128 .f32)
    (x3 : FVec Ideal S128x64 .bf16) (x4 : FVec Ideal S1x64 .f32) (x5 : FVec Ideal S64x32 .bf16) (x6 : FVec Ideal S1x32 .f32)
    (x7 : FVec Ideal S1x32 .f32) (x8 : FVec Ideal S32x4096 .bf16) (x9 : FVec Ideal S1x4096 .f32) :
    out0_10 (F := Ideal) x0 x1 x2 x3 x4 x5 x6 x7 x8 x9 = blockOut x0 x1 x2 x3 x4 x5 x6 x7 x8 x9 := by
  funext y
  unfold out0_10
  refine View.canon_apply_of_pieces (Val := Elt Ideal) (blockOut x0 x1 x2 x3 x4 x5 x6 x7 x8 x9) _ ?_ y (cover0_10 _ _ _ _ y)
  intro pc hpc x
  simp only [List.mem_cons, List.not_mem_nil, or_false] at hpc
  rcases hpc with rfl | rfl | rfl | rfl
  · exact piece5_apply x0 x1 x2 x3 x4 x5 x6 x7 x8 x9 x
  · exact piece4_apply x0 x1 x2 x3 x4 x5 x6 x7 x8 x9 x
  · exact piece3_apply x0 x1 x2 x3 x4 x5 x6 x7 x8 x9 x
  · exact piece2_apply x0 x1 x2 x3 x4 x5 x6 x7 x8 x9 x

end Cert.KernelIdeal.Block

end
-- ==== Proof.ReconArray.lean ====
/-
  The reconstructed array, as one function of the argument arrays.

  Entry `(r, j)` of the `16384 × 4096` result is the reconstruction (`RowNetwork.recon`) of row `r` of the input at
  output coordinate `j`. The weights are read as `(input unit, output unit)`, the biases and the offset as
  vectors. The offset vector is a parameter: both programs obtain it from the circuit parameters by the same
  column sum of their `6 × 32` arrangement, and that sum is never opened.
-/
import proofs.«174179_j65481071396601_2_alg».proof.Proof.RowNetwork
import Idealize.ShloMosaic.Lib.ValueIdx

noncomputable section

namespace Cert.ReconArray

open Idealize.ShloMosaic Idealize.ShloMosaic.ValueIdx

/-- Entry `(r, j)` of the reconstructed array. -/
def entry (X : (⟨2, ![16384, 4096]⟩ : Shape).Idx → EReal) (W1 : (⟨2, ![4096, 128]⟩ : Shape).Idx → EReal)
    (b1 : (⟨1, ![128]⟩ : Shape).Idx → EReal) (W2 : (⟨2, ![128, 64]⟩ : Shape).Idx → EReal)
    (b2 : (⟨1, ![64]⟩ : Shape).Idx → EReal) (W3 : (⟨2, ![64, 32]⟩ : Shape).Idx → EReal)
    (b3 : (⟨1, ![32]⟩ : Shape).Idx → EReal) (off : (⟨1, ![32]⟩ : Shape).Idx → EReal)
    (Wd : (⟨2, ![32, 4096]⟩ : Shape).Idx → EReal) (bd : (⟨1, ![4096]⟩ : Shape).Idx → EReal)
    (r : Fin 16384) (j : Fin 4096) : EReal :=
  RowNetwork.recon (fun a b => W1 (ix2 a b)) (fun b => b1 (ix1 b)) (fun a b => W2 (ix2 a b)) (fun b => b2 (ix1 b))
    (fun a b => W3 (ix2 a b)) (fun b => b3 (ix1 b)) (fun k => off (ix1 k)) (fun a b => Wd (ix2 a b)) (fun b => bd (ix1 b))
    (fun a => X (ix2 r a)) j

/-- The reconstructed array as a function of its index. -/
def arrayOut (X : (⟨2, ![16384, 4096]⟩ : Shape).Idx → EReal) (W1 : (⟨2, ![4096, 128]⟩ : Shape).Idx → EReal)
    (b1 : (⟨1, ![128]⟩ : Shape).Idx → EReal) (W2 : (⟨2, ![128, 64]⟩ : Shape).Idx → EReal)
    (b2 : (⟨1, ![64]⟩ : Shape).Idx → EReal) (W3 : (⟨2, ![64, 32]⟩ : Shape).Idx → EReal)
    (b3 : (⟨1, ![32]⟩ : Shape).Idx → EReal) (off : (⟨1, ![32]⟩ : Shape).Idx → EReal)
    (Wd : (⟨2, ![32, 4096]⟩ : Shape).Idx → EReal) (bd : (⟨1, ![4096]⟩ : Shape).Idx → EReal) :
    (⟨2, ![16384, 4096]⟩ : Shape).Idx → EReal :=
  fun i => entry X W1 b1 W2 b2 W3 b3 off Wd bd (i 0) (i 1)

end Cert.ReconArray

end
-- ==== Proof.BlocksToArray.lean ====
/-
  From the blocks to the array: what the kernel's run leaves in its result.

  The grid has 32 points; point `t` works on rows `512 t … 512 t + 511` of the input and writes back the same rows of
  the result, while every weight, bias and offset window hands the body its whole array at every point. Before
  the region the host narrows the four weight arrays to bf16 (nothing on the extended reals), lays each bias out
  as one row, and forms the offset vector — the column sum of the circuit parameters arranged `6 × 32` — as one
  row too. So the block point `t` writes back is the reconstructed array (`ReconArray.arrayOut`) of the arguments
  restricted to its rows; the 32 row blocks cover the result; hence the result array after the run is the
  reconstructed array.
-/
import proofs.«174179_j65481071396601_2_alg».proof.Proof.Gen.KernelIdeal.Value
import proofs.«174179_j65481071396601_2_alg».proof.Proof.KernelBlock
import proofs.«174179_j65481071396601_2_alg».proof.Proof.ReconArray
import Idealize.ShloMosaic.Lib.StableHlo.Run
import Idealize.ShloMosaic.Lib.ValueLayout

set_option maxRecDepth 16384

noncomputable section

namespace Cert.KernelIdeal.Recon

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-! ## A block entry against an array entry -/

/-- The block function at `(p, j)` is the array function at `(r, j)` as soon as row `p` of the input block is row `r`
    of the input array and the weight, bias and offset blocks are the arrays. -/
theorem entry_congr (x0 : FVec Ideal S512x4096 .f32) (x1 : FVec Ideal S4096x128 .bf16) (x2 : FVec Ideal S1x128 .f32)
    (x3 : FVec Ideal S128x64 .bf16) (x4 : FVec Ideal S1x64 .f32) (x5 : FVec Ideal S64x32 .bf16) (x6 : FVec Ideal S1x32 .f32)
    (x7 : FVec Ideal S1x32 .f32) (x8 : FVec Ideal S32x4096 .bf16) (x9 : FVec Ideal S1x4096 .f32)
    (X : FVec Ideal S16384x4096 .f32) (W1 : FVec Ideal S4096x128 .f32) (b1 : FVec Ideal S128 .f32) (W2 : FVec Ideal S128x64 .f32)
    (b2 : FVec Ideal S64 .f32) (W3 : FVec Ideal S64x32 .f32) (b3 : FVec Ideal S32 .f32) (off : FVec Ideal S32 .f32)
    (Wd : FVec Ideal S32x4096 .f32) (bd : FVec Ideal S4096 .f32) (p : Fin 512) (r : Fin 16384) (j : Fin 4096)
    (h0 : ∀ a, x0 (ix2 p a) = X (ix2 r a)) (h1 : ∀ a b, x1 (ix2 a b) = W1 (ix2 a b)) (h2 : ∀ b, x2 (ix2 (0 : Fin 1) b) = b1 (ix1 b))
    (h3 : ∀ a b, x3 (ix2 a b) = W2 (ix2 a b)) (h4 : ∀ b, x4 (ix2 (0 : Fin 1) b) = b2 (ix1 b))
    (h5 : ∀ a b, x5 (ix2 a b) = W3 (ix2 a b)) (h6 : ∀ b, x6 (ix2 (0 : Fin 1) b) = b3 (ix1 b))
    (h7 : ∀ b, x7 (ix2 (0 : Fin 1) b) = off (ix1 b)) (h8 : ∀ a b, x8 (ix2 a b) = Wd (ix2 a b))
    (h9 : ∀ b, x9 (ix2 (0 : Fin 1) b) = bd (ix1 b)) :
    Block.entry x0 x1 x2 x3 x4 x5 x6 x7 x8 x9 p j = ReconArray.entry X W1 b1 W2 b2 W3 b3 off Wd bd r j := by
  unfold Block.entry ReconArray.entry
  simp only [h0, h1, h2, h3, h4, h5, h6, h7, h8, h9]

variable (m : (ℓ : Loc nD τ sig) → Buf (Elt Ideal) ℓ) (ρ : Dev nD → PrngReg)

/-! ## The arrays the host writes before the region -/

/-- The offset vector: the circuit parameters arranged `6 × 32` and summed down each column, from the zero word. -/
def offset (q : FVec Ideal S192 .f32) : FVec Ideal S32 .f32 :=
  Host.reduceAdd (F := Ideal) (shapeCast S6x32 q (show S192.ShapeCasts S6x32 by decide))
    (constant (F := Ideal) S_ .f32 0x00000000#32) (show S6x32.ReducesTo [0] S32 by decide) (show 0 < S_.numel by decide)

/-- At region entry window 1's array is argument `main_arg1` narrowed to bf16 by the host. -/
theorem entry1 (c : Dev nD) :
    (V m c main_v2 : FVec Ideal S4096x128 .bf16) = (truncf (F := Ideal) .bf16 ((m ((c : Thread nD τ).loc main_arg1)) : FVec Ideal S4096x128 .f32) (show FTy.bits .bf16 < FTy.bits .f32 by decide) : FVec Ideal S4096x128 .bf16) := by
  dsimp only [Gen.V, Gen.hostOps0]; after_results

/-- At region entry window 3's array is argument `main_arg3` narrowed to bf16 by the host. -/
theorem entry3 (c : Dev nD) :
    (V m c main_v3 : FVec Ideal S128x64 .bf16) = (truncf (F := Ideal) .bf16 ((m ((c : Thread nD τ).loc main_arg3)) : FVec Ideal S128x64 .f32) (show FTy.bits .bf16 < FTy.bits .f32 by decide) : FVec Ideal S128x64 .bf16) := by
  dsimp only [Gen.V, Gen.hostOps0]; after_results

/-- At region entry window 5's array is argument `main_arg5` narrowed to bf16 by the host. -/
theorem entry5 (c : Dev nD) :
    (V m c main_v4 : FVec Ideal S64x32 .bf16) = (truncf (F := Ideal) .bf16 ((m ((c : Thread nD τ).loc main_arg5)) : FVec Ideal S64x32 .f32) (show FTy.bits .bf16 < FTy.bits .f32 by decide) : FVec Ideal S64x32 .bf16) := by
  dsimp only [Gen.V, Gen.hostOps0]; after_results

/-- At region entry window 8's array is argument `main_arg8` narrowed to bf16 by the host. -/
theorem entry8 (c : Dev nD) :
    (V m c main_v5 : FVec Ideal S32x4096 .bf16) = (truncf (F := Ideal) .bf16 ((m ((c : Thread nD τ).loc main_arg8)) : FVec Ideal S32x4096 .f32) (show FTy.bits .bf16 < FTy.bits .f32 by decide) : FVec Ideal S32x4096 .bf16) := by
  dsimp only [Gen.V, Gen.hostOps0]; after_results

/-- At region entry window 2's array is argument `main_arg2` laid out as one row by the host. -/
theorem entry2 (c : Dev nD) :
    (V m c main_v6 : FVec Ideal S1x128 .f32) = shapeCast S1x128 ((m ((c : Thread nD τ).loc main_arg2)) : FVec Ideal S128 .f32) (show S128.ShapeCasts S1x128 by decide) := by
  dsimp only [Gen.V, Gen.hostOps0]; after_results; rfl

/-- At region entry window 4's array is argument `main_arg4` laid out as one row by the host. -/
theorem entry4 (c : Dev nD) :
    (V m c main_v7 : FVec Ideal S1x64 .f32) = shapeCast S1x64 ((m ((c : Thread nD τ).loc main_arg4)) : FVec Ideal S64 .f32) (show S64.ShapeCasts S1x64 by decide) := by
  dsimp only [Gen.V, Gen.hostOps0]; after_results; rfl

/-- At region entry window 6's array is argument `main_arg6` laid out as one row by the host. -/
theorem entry6 (c : Dev nD) :
    (V m c main_v8 : FVec Ideal S1x32 .f32) = shapeCast S1x32 ((m ((c : Thread nD τ).loc main_arg6)) : FVec Ideal S32 .f32) (show S32.ShapeCasts S1x32 by decide) := by
  dsimp only [Gen.V, Gen.hostOps0]; after_results; rfl

/-- At region entry window 9's array is argument `main_arg9` laid out as one row by the host. -/
theorem entry9 (c : Dev nD) :
    (V m c main_v10 : FVec Ideal S1x4096 .f32) = shapeCast S1x4096 ((m ((c : Thread nD τ).loc main_arg9)) : FVec Ideal S4096 .f32) (show S4096.ShapeCasts S1x4096 by decide) := by
  dsimp only [Gen.V, Gen.hostOps0]; after_results; rfl

/-- At region entry window 7's array is the offset vector laid out as one row. -/
theorem entry7 (c : Dev nD) :
    (V m c main_v9 : FVec Ideal S1x32 .f32) = shapeCast S1x32 (offset (m ((c : Thread nD τ).loc main_arg7))) (show S32.ShapeCasts S1x32 by decide) := by
  dsimp only [Gen.V, Gen.hostOps0]; after_results; rfl

/-! ## The windows' index maps, decided over the 32 points -/

/-- The input and the result move down one block of 512 rows per point and stay at column block 0. -/
theorem idx_rows : ∀ t : Fin cfg0.N, win0_0.index t 0 = t.val ∧ win0_0.index t 1 = 0
    ∧ win0_10.index t 0 = t.val ∧ win0_10.index t 1 = 0 :=
  (by decide +kernel : ∀ t : Fin grid0.N, _)

theorem idx_whole1 : ∀ t : Fin cfg0.N, win0_1.index t 0 = 0 ∧ win0_1.index t 1 = 0 :=
  (by decide +kernel : ∀ t : Fin grid0.N, _)
theorem idx_whole2 : ∀ t : Fin cfg0.N, win0_2.index t 0 = 0 ∧ win0_2.index t 1 = 0 :=
  (by decide +kernel : ∀ t : Fin grid0.N, _)
theorem idx_whole3 : ∀ t : Fin cfg0.N, win0_3.index t 0 = 0 ∧ win0_3.index t 1 = 0 :=
  (by decide +kernel : ∀ t : Fin grid0.N, _)
theorem idx_whole4 : ∀ t : Fin cfg0.N, win0_4.index t 0 = 0 ∧ win0_4.index t 1 = 0 :=
  (by decide +kernel : ∀ t : Fin grid0.N, _)
theorem idx_whole5 : ∀ t : Fin cfg0.N, win0_5.index t 0 = 0 ∧ win0_5.index t 1 = 0 :=
  (by decide +kernel : ∀ t : Fin grid0.N, _)
theorem idx_whole6 : ∀ t : Fin cfg0.N, win0_6.index t 0 = 0 ∧ win0_6.index t 1 = 0 :=
  (by decide +kernel : ∀ t : Fin grid0.N, _)
theorem idx_whole7 : ∀ t : Fin cfg0.N, win0_7.index t 0 = 0 ∧ win0_7.index t 1 = 0 :=
  (by decide +kernel : ∀ t : Fin grid0.N, _)
theorem idx_whole8 : ∀ t : Fin cfg0.N, win0_8.index t 0 = 0 ∧ win0_8.index t 1 = 0 :=
  (by decide +kernel : ∀ t : Fin grid0.N, _)
theorem idx_whole9 : ∀ t : Fin cfg0.N, win0_9.index t 0 = 0 ∧ win0_9.index t 1 = 0 :=
  (by decide +kernel : ∀ t : Fin grid0.N, _)

/-! ## The blocks, read -/

/-- The input window's block at point `t` is rows `512 t … 512 t + 511` of the input. -/
theorem blk0_apply (c : Dev nD) (t : Fin cfg0.N) (p : Fin 512) (a : Fin 4096) (r : Fin 16384) (hr : r.val = 512 * t.val + p.val) :
    (iblk m c 0 t : FVec Ideal S512x4096 .f32) (ix2 p a) = ((m ((c : Thread nD τ).loc main_arg0)) : FVec Ideal S16384x4096 .f32) (ix2 r a) := by
  obtain ⟨h0, h1, -, -⟩ := idx_rows t
  unfold iblk
  rw [View.read_apply]
  show V m c main_arg0 _ = _
  rw [V_main_arg0]
  show ((m ((c : Thread nD τ).loc main_arg0)) : FVec Ideal S16384x4096 .f32) _ = _
  congr 1
  funext d
  apply Fin.ext
  match d with
  | ⟨0, _⟩ => show win0_0.index t 0 * 512 + 1 * p.val = r.val; rw [h0, hr]; omega
  | ⟨1, _⟩ => show win0_0.index t 1 * 4096 + 1 * a.val = a.val; rw [h1]; omega

/-- Window 1's block is its whole array at every point: entry `(a, b)` of the block is entry `(a, b)` of `main_arg1`. -/
theorem blk1_apply (c : Dev nD) (t : Fin cfg0.N) (a : Fin 4096) (b : Fin 128) :
    (iblk m c 1 t : FVec Ideal S4096x128 .bf16) (ix2 a b) = ((m ((c : Thread nD τ).loc main_arg1)) : FVec Ideal S4096x128 .f32) (ix2 a b) := by
  have hi : win0_1.index t 0 = 0 ∧ win0_1.index t 1 = 0 := idx_whole1 t
  unfold iblk
  rw [View.read_apply]
  show (V m c main_v2 : FVec Ideal S4096x128 .bf16) _ = _
  rw [entry1]
  show ((m ((c : Thread nD τ).loc main_arg1)) : FVec Ideal S4096x128 .f32) _ = _
  congr 1
  funext d
  apply Fin.ext
  match d with
  | ⟨0, _⟩ => show win0_1.index t 0 * 4096 + 1 * a.val = a.val; rw [hi.1]; omega
  | ⟨1, _⟩ => show win0_1.index t 1 * 128 + 1 * b.val = b.val; rw [hi.2]; omega

/-- Window 3's block is its whole array at every point: entry `(a, b)` of the block is entry `(a, b)` of `main_arg3`. -/
theorem blk3_apply (c : Dev nD) (t : Fin cfg0.N) (a : Fin 128) (b : Fin 64) :
    (iblk m c 3 t : FVec Ideal S128x64 .bf16) (ix2 a b) = ((m ((c : Thread nD τ).loc main_arg3)) : FVec Ideal S128x64 .f32) (ix2 a b) := by
  have hi : win0_3.index t 0 = 0 ∧ win0_3.index t 1 = 0 := idx_whole3 t
  unfold iblk
  rw [View.read_apply]
  show (V m c main_v3 : FVec Ideal S128x64 .bf16) _ = _
  rw [entry3]
  show ((m ((c : Thread nD τ).loc main_arg3)) : FVec Ideal S128x64 .f32) _ = _
  congr 1
  funext d
  apply Fin.ext
  match d with
  | ⟨0, _⟩ => show win0_3.index t 0 * 128 + 1 * a.val = a.val; rw [hi.1]; omega
  | ⟨1, _⟩ => show win0_3.index t 1 * 64 + 1 * b.val = b.val; rw [hi.2]; omega

/-- Window 5's block is its whole array at every point: entry `(a, b)` of the block is entry `(a, b)` of `main_arg5`. -/
theorem blk5_apply (c : Dev nD) (t : Fin cfg0.N) (a : Fin 64) (b : Fin 32) :
    (iblk m c 5 t : FVec Ideal S64x32 .bf16) (ix2 a b) = ((m ((c : Thread nD τ).loc main_arg5)) : FVec Ideal S64x32 .f32) (ix2 a b) := by
  have hi : win0_5.index t 0 = 0 ∧ win0_5.index t 1 = 0 := idx_whole5 t
  unfold iblk
  rw [View.read_apply]
  show (V m c main_v4 : FVec Ideal S64x32 .bf16) _ = _
  rw [entry5]
  show ((m ((c : Thread nD τ).loc main_arg5)) : FVec Ideal S64x32 .f32) _ = _
  congr 1
  funext d
  apply Fin.ext
  match d with
  | ⟨0, _⟩ => show win0_5.index t 0 * 64 + 1 * a.val = a.val; rw [hi.1]; omega
  | ⟨1, _⟩ => show win0_5.index t 1 * 32 + 1 * b.val = b.val; rw [hi.2]; omega

/-- Window 8's block is its whole array at every point: entry `(a, b)` of the block is entry `(a, b)` of `main_arg8`. -/
theorem blk8_apply (c : Dev nD) (t : Fin cfg0.N) (a : Fin 32) (b : Fin 4096) :
    (iblk m c 8 t : FVec Ideal S32x4096 .bf16) (ix2 a b) = ((m ((c : Thread nD τ).loc main_arg8)) : FVec Ideal S32x4096 .f32) (ix2 a b) := by
  have hi : win0_8.index t 0 = 0 ∧ win0_8.index t 1 = 0 := idx_whole8 t
  unfold iblk
  rw [View.read_apply]
  show (V m c main_v5 : FVec Ideal S32x4096 .bf16) _ = _
  rw [entry8]
  show ((m ((c : Thread nD τ).loc main_arg8)) : FVec Ideal S32x4096 .f32) _ = _
  congr 1
  funext d
  apply Fin.ext
  match d with
  | ⟨0, _⟩ => show win0_8.index t 0 * 32 + 1 * a.val = a.val; rw [hi.1]; omega
  | ⟨1, _⟩ => show win0_8.index t 1 * 4096 + 1 * b.val = b.val; rw [hi.2]; omega

/-- Window 2's block is its whole one-row array at every point: entry `(0, b)` of the block is entry `b` of `main_arg2`. -/
theorem blk2_apply (c : Dev nD) (t : Fin cfg0.N) (b : Fin 128) :
    (iblk m c 2 t : FVec Ideal S1x128 .f32) (ix2 (0 : Fin 1) b) = ((m ((c : Thread nD τ).loc main_arg2)) : FVec Ideal S128 .f32) (ix1 b) := by
  have hi : win0_2.index t 0 = 0 ∧ win0_2.index t 1 = 0 := idx_whole2 t
  unfold iblk
  rw [View.read_apply]
  show (V m c main_v6 : FVec Ideal S1x128 .f32) _ = _
  rw [entry2]
  refine Eq.trans (congrArg _ ?_) (shapeCast_a_1a_apply _ _ (0 : Fin 1) b)
  funext d
  apply Fin.ext
  match d with
  | ⟨0, _⟩ => show win0_2.index t 0 * 1 + 1 * 0 = 0; rw [hi.1]
  | ⟨1, _⟩ => show win0_2.index t 1 * 128 + 1 * b.val = b.val; rw [hi.2]; omega

/-- Window 4's block is its whole one-row array at every point: entry `(0, b)` of the block is entry `b` of `main_arg4`. -/
theorem blk4_apply (c : Dev nD) (t : Fin cfg0.N) (b : Fin 64) :
    (iblk m c 4 t : FVec Ideal S1x64 .f32) (ix2 (0 : Fin 1) b) = ((m ((c : Thread nD τ).loc main_arg4)) : FVec Ideal S64 .f32) (ix1 b) := by
  have hi : win0_4.index t 0 = 0 ∧ win0_4.index t 1 = 0 := idx_whole4 t
  unfold iblk
  rw [View.read_apply]
  show (V m c main_v7 : FVec Ideal S1x64 .f32) _ = _
  rw [entry4]
  refine Eq.trans (congrArg _ ?_) (shapeCast_a_1a_apply _ _ (0 : Fin 1) b)
  funext d
  apply Fin.ext
  match d with
  | ⟨0, _⟩ => show win0_4.index t 0 * 1 + 1 * 0 = 0; rw [hi.1]
  | ⟨1, _⟩ => show win0_4.index t 1 * 64 + 1 * b.val = b.val; rw [hi.2]; omega

/-- Window 6's block is its whole one-row array at every point: entry `(0, b)` of the block is entry `b` of `main_arg6`. -/
theorem blk6_apply (c : Dev nD) (t : Fin cfg0.N) (b : Fin 32) :
    (iblk m c 6 t : FVec Ideal S1x32 .f32) (ix2 (0 : Fin 1) b) = ((m ((c : Thread nD τ).loc main_arg6)) : FVec Ideal S32 .f32) (ix1 b) := by
  have hi : win0_6.index t 0 = 0 ∧ win0_6.index t 1 = 0 := idx_whole6 t
  unfold iblk
  rw [View.read_apply]
  show (V m c main_v8 : FVec Ideal S1x32 .f32) _ = _
  rw [entry6]
  refine Eq.trans (congrArg _ ?_) (shapeCast_a_1a_apply _ _ (0 : Fin 1) b)
  funext d
  apply Fin.ext
  match d with
  | ⟨0, _⟩ => show win0_6.index t 0 * 1 + 1 * 0 = 0; rw [hi.1]
  | ⟨1, _⟩ => show win0_6.index t 1 * 32 + 1 * b.val = b.val; rw [hi.2]; omega

/-- Window 9's block is its whole one-row array at every point: entry `(0, b)` of the block is entry `b` of `main_arg9`. -/
theorem blk9_apply (c : Dev nD) (t : Fin cfg0.N) (b : Fin 4096) :
    (iblk m c 9 t : FVec Ideal S1x4096 .f32) (ix2 (0 : Fin 1) b) = ((m ((c : Thread nD τ).loc main_arg9)) : FVec Ideal S4096 .f32) (ix1 b) := by
  have hi : win0_9.index t 0 = 0 ∧ win0_9.index t 1 = 0 := idx_whole9 t
  unfold iblk
  rw [View.read_apply]
  show (V m c main_v10 : FVec Ideal S1x4096 .f32) _ = _
  rw [entry9]
  refine Eq.trans (congrArg _ ?_) (shapeCast_a_1a_apply _ _ (0 : Fin 1) b)
  funext d
  apply Fin.ext
  match d with
  | ⟨0, _⟩ => show win0_9.index t 0 * 1 + 1 * 0 = 0; rw [hi.1]
  | ⟨1, _⟩ => show win0_9.index t 1 * 4096 + 1 * b.val = b.val; rw [hi.2]; omega

/-- Window 7's block is the offset row at every point: entry `(0, b)` is entry `b` of the offset vector. -/
theorem blk7_apply (c : Dev nD) (t : Fin cfg0.N) (b : Fin 32) :
    (iblk m c 7 t : FVec Ideal S1x32 .f32) (ix2 (0 : Fin 1) b) = offset (m ((c : Thread nD τ).loc main_arg7)) (ix1 b) := by
  have hi : win0_7.index t 0 = 0 ∧ win0_7.index t 1 = 0 := idx_whole7 t
  unfold iblk
  rw [View.read_apply]
  show (V m c main_v9 : FVec Ideal S1x32 .f32) _ = _
  rw [entry7]
  refine Eq.trans (congrArg _ ?_) (shapeCast_a_1a_apply _ _ (0 : Fin 1) b)
  funext d
  apply Fin.ext
  match d with
  | ⟨0, _⟩ => show win0_7.index t 0 * 1 + 1 * 0 = 0; rw [hi.1]
  | ⟨1, _⟩ => show win0_7.index t 1 * 32 + 1 * b.val = b.val; rw [hi.2]; omega

/-! ## What a point writes back, the cover, the run -/

/-- The result array the run leaves: the reconstructed array of the arguments. -/
def result (c : Dev nD) : FVec Ideal S16384x4096 .f32 :=
  ReconArray.arrayOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (offset (m ((c : Thread nD τ).loc main_arg7))) (m ((c : Thread nD τ).loc main_arg8)) (m ((c : Thread nD τ).loc main_arg9))

/-- The block function of point `t`'s input blocks at a local index is the result at the array index `512 t` rows
    further down, same column. -/
theorem block_apply (c : Dev nD) (t : Fin cfg0.N) (y : S512x4096.Idx) (k : S16384x4096.Idx)
    (hk0 : (k 0).val = 512 * t.val + (y 0).val) (hk1 : (k 1).val = (y 1).val) :
    Block.blockOut (iblk m c 0 t) (iblk m c 1 t) (iblk m c 2 t) (iblk m c 3 t) (iblk m c 4 t) (iblk m c 5 t) (iblk m c 6 t) (iblk m c 7 t) (iblk m c 8 t) (iblk m c 9 t) y = result m c k := by
  have hk : k 1 = y 1 := Fin.ext hk1
  show Block.entry (iblk m c 0 t) (iblk m c 1 t) (iblk m c 2 t) (iblk m c 3 t) (iblk m c 4 t) (iblk m c 5 t) (iblk m c 6 t) (iblk m c 7 t) (iblk m c 8 t) (iblk m c 9 t) (y 0) (y 1) = ReconArray.entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (offset (m ((c : Thread nD τ).loc main_arg7))) (m ((c : Thread nD τ).loc main_arg8)) (m ((c : Thread nD τ).loc main_arg9)) (k 0) (k 1)
  rw [hk]
  exact entry_congr (iblk m c 0 t) (iblk m c 1 t) (iblk m c 2 t) (iblk m c 3 t) (iblk m c 4 t) (iblk m c 5 t) (iblk m c 6 t) (iblk m c 7 t) (iblk m c 8 t) (iblk m c 9 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (offset (m ((c : Thread nD τ).loc main_arg7))) (m ((c : Thread nD τ).loc main_arg8)) (m ((c : Thread nD τ).loc main_arg9)) (y 0) (k 0) (y 1)
    (fun a => blk0_apply m c t (y 0) a (k 0) hk0) (fun a b => blk1_apply m c t a b) (fun b => blk2_apply m c t b)
    (fun a b => blk3_apply m c t a b) (fun b => blk4_apply m c t b) (fun a b => blk5_apply m c t a b)
    (fun b => blk6_apply m c t b) (fun b => blk7_apply m c t b) (fun a b => blk8_apply m c t a b) (fun b => blk9_apply m c t b)

/-- What point `t` writes back is block `t` of the result. -/
theorem flushed_eq (c : Dev nD) (t : Fin cfg0.N) :
    (dats m 0 c).flushed 10 t = ((cfg0.win 10).blk t).view.read (Elt Ideal) (result m c) := by
  rw [Value.flushed10, Block.out_eq]
  obtain ⟨-, -, o0, o1⟩ := idx_rows t
  funext j
  show Block.blockOut (iblk m c 0 t) (iblk m c 1 t) (iblk m c 2 t) (iblk m c 3 t) (iblk m c 4 t) (iblk m c 5 t) (iblk m c 6 t) (iblk m c 7 t) (iblk m c 8 t) (iblk m c 9 t) j = result m c (((cfg0.win 10).blk t).view.emb j)
  refine block_apply m c t j _ ?_ ?_
  · show win0_10.index t 0 * 512 + 1 * (j 0).val = 512 * t.val + (j 0).val; rw [o0]; omega
  · show win0_10.index t 1 * 4096 + 1 * (j 1).val = (j 1).val; rw [o1]; omega

/-- An index of the result is in point `t`'s block iff each coordinate is in the block's range on its axis. -/
theorem mem_blk (t : Fin cfg0.N) (i : S16384x4096.Idx) :
    i ∈ ((cfg0.win 10).blk t).view.set ↔ ∀ a : Fin 2, win0_10.index t a * S512x4096.size a ≤ (i a).val
      ∧ (i a).val < win0_10.index t a * S512x4096.size a + S512x4096.size a := by
  show i ∈ ((View.whole main_v11).slice (win0_10.rect t)).set ↔ _
  rw [View.set_slice_whole, Rect.mem_set_unit]
  exact Iff.rfl

/-- Every index of the result lies in the block of the point its row falls in. -/
theorem covered (i : S16384x4096.Idx) :
    ∃ t : Fin cfg0.N, (cfg0.win 10).flush t = true ∧ i ∈ ((cfg0.win 10).blk t).view.set := by
  have hN : cfg0.N = 32 := N_0
  have hi0 : (i 0).val < 16384 := (i 0).isLt
  have hi1 : (i 1).val < 4096 := (i 1).isLt
  obtain ⟨-, -, o0, o1⟩ := idx_rows ⟨(i 0).val / 512, by rw [hN]; omega⟩
  refine ⟨⟨(i 0).val / 512, by rw [hN]; omega⟩, flush0_10 _, ?_⟩
  rw [mem_blk]
  intro a
  match a with
  | ⟨0, _⟩ =>
    show win0_10.index ⟨(i 0).val / 512, _⟩ 0 * 512 ≤ (i 0).val ∧ (i 0).val < win0_10.index ⟨(i 0).val / 512, _⟩ 0 * 512 + 512
    rw [o0]; show (i 0).val / 512 * 512 ≤ (i 0).val ∧ (i 0).val < (i 0).val / 512 * 512 + 512; omega
  | ⟨1, _⟩ =>
    show win0_10.index ⟨(i 0).val / 512, _⟩ 1 * 4096 ≤ (i 1).val ∧ (i 1).val < win0_10.index ⟨(i 0).val / 512, _⟩ 1 * 4096 + 4096
    rw [o1]; omega

/-- The result array after the run is the reconstructed array. -/
theorem final (c : Dev nD) : (dats m 0 c).arrAt 10 cfg0.N = result m c :=
  (dats m 0 c).arrAt_eq_of_cover 10 (result m c) (fun t _ => flushed_eq m c t) covered

/-- The kernel's run: it terminates with the result at the reconstructed array and the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Recon

end
-- ==== Proof.ReferenceRows.lean ====
/-
  The reference, read row by row.

  Each stage of the reference is read at an index `(r, ·)` from the stages before it: a `dot_general` over one
  contracted axis is the sum over that axis of products, a bias is a vector spread over the rows, the rectifier
  compares with a zero spread over the whole array, the cosine acts entry by entry. Chaining the stages, entry
  `(r, j)` of the reference's result is `RowNetwork.recon` of row `r` of the input at `j`; the offset vector is the
  reference's column sum of the circuit parameters, kept as one term.
-/
import proofs.«174179_j65481071396601_2_alg».proof.Proof.Gen.ReferenceIdeal.Read
import proofs.«174179_j65481071396601_2_alg».proof.Proof.ReconArray

noncomputable section

namespace Cert.ReferenceIdeal.Rows

open Cert.ReferenceIdeal Cert.ReferenceIdeal.Read Idealize.ShloMosaic Idealize.ShloMosaic.ValueIdx

/-- The first hidden layer of row `r`, unit `b`. -/
theorem hidden1_apply (x0 : (⟨S16384x4096, .f32⟩ : BufTy).Contents (Elt Ideal)) (x1 : (⟨S4096x128, .f32⟩ : BufTy).Contents (Elt Ideal)) (x2 : (⟨S128, .f32⟩ : BufTy).Contents (Elt Ideal)) (r : Fin 16384) (b : Fin 128) :
    val_main_v4 (F := Ideal) x0 x1 x2 (ix2 r b)
      = RowNetwork.relu (RowNetwork.dense (fun a b => x1 (ix2 a b)) (fun b => x2 (ix1 b)) (fun a => x0 (ix2 r a)) b) := by
  rw [val_main_v4_apply, val_main_v3_apply, val_main_v0_apply, val_main_v2_apply, val_main_v1_apply,
    val_main_call0_v0_apply, val_main_call0_cst_apply]
  have el : ∀ k, lidx_main_v0 (ix2 r b) k = ix2 r k := fun k => funext fun a => Fin.ext (by match a with | ⟨0, _⟩ => rfl | ⟨1, _⟩ => rfl)
  have er : ∀ k, ridx_main_v0 (ix2 r b) k = ix2 k b := fun k => funext fun a => Fin.ext (by match a with | ⟨0, _⟩ => rfl | ⟨1, _⟩ => rfl)
  have eb : idx_main_v1 (idx_main_v2 (ix2 r b)) = ix1 b := funext fun a => Fin.ext (by match a with | ⟨0, _⟩ => rfl)
  simp only [el, er, eb]
  rfl

/-- The second hidden layer of row `r`, unit `c`. -/
theorem hidden2_apply (x0 : (⟨S16384x4096, .f32⟩ : BufTy).Contents (Elt Ideal)) (x1 : (⟨S4096x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (r : Fin 16384) (c : Fin 64) :
    val_main_v9 (F := Ideal) x0 x1 x2 x3 x4 (ix2 r c)
      = RowNetwork.relu (RowNetwork.dense (fun a b => x3 (ix2 a b)) (fun b => x4 (ix1 b))
          (fun b => RowNetwork.relu (RowNetwork.dense (fun a b => x1 (ix2 a b)) (fun b => x2 (ix1 b)) (fun a => x0 (ix2 r a)) b)) c) := by
  rw [val_main_v9_apply, val_main_v8_apply, val_main_v5_apply, val_main_v7_apply, val_main_v6_apply,
    val_main_call1_v0_apply, val_main_call1_cst_apply]
  have el : ∀ k, lidx_main_v5 (ix2 r c) k = ix2 r k := fun k => funext fun a => Fin.ext (by match a with | ⟨0, _⟩ => rfl | ⟨1, _⟩ => rfl)
  have er : ∀ k, ridx_main_v5 (ix2 r c) k = ix2 k c := fun k => funext fun a => Fin.ext (by match a with | ⟨0, _⟩ => rfl | ⟨1, _⟩ => rfl)
  have eb : idx_main_v6 (idx_main_v7 (ix2 r c)) = ix1 c := funext fun a => Fin.ext (by match a with | ⟨0, _⟩ => rfl)
  simp only [el, er, eb, hidden1_apply]
  rfl

/-- The latent code of row `r`, unit `k`; the offset is the reference's column sum of the circuit parameters. -/
theorem latent_apply (x0 : (⟨S16384x4096, .f32⟩ : BufTy).Contents (Elt Ideal)) (x1 : (⟨S4096x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S192, .f32⟩ : BufTy).Contents (Elt Ideal)) (r : Fin 16384) (k : Fin 32) :
    val_main_v19 (F := Ideal) x0 x1 x2 x3 x4 x5 x6 x7 (ix2 r k)
      = RowNetwork.latent (fun a b => x1 (ix2 a b)) (fun b => x2 (ix1 b)) (fun a b => x3 (ix2 a b)) (fun b => x4 (ix1 b))
          (fun a b => x5 (ix2 a b)) (fun b => x6 (ix1 b)) (fun k => val_main_v15 (F := Ideal) x7 (ix1 k)) (fun a => x0 (ix2 r a)) k := by
  rw [val_main_v19_apply, val_main_v18_apply, val_main_v13_apply, val_main_v10_apply, val_main_v12_apply, val_main_v11_apply,
    val_main_v17_apply, val_main_v16_apply]
  have el : ∀ q, lidx_main_v10 (ix2 r k) q = ix2 r q := fun q => funext fun a => Fin.ext (by match a with | ⟨0, _⟩ => rfl | ⟨1, _⟩ => rfl)
  have er : ∀ q, ridx_main_v10 (ix2 r k) q = ix2 q k := fun q => funext fun a => Fin.ext (by match a with | ⟨0, _⟩ => rfl | ⟨1, _⟩ => rfl)
  have eb : idx_main_v11 (idx_main_v12 (ix2 r k)) = ix1 k := funext fun a => Fin.ext (by match a with | ⟨0, _⟩ => rfl)
  have eo : idx_main_v16 (idx_main_v17 (ix2 r k)) = ix1 k := funext fun a => Fin.ext (by match a with | ⟨0, _⟩ => rfl)
  simp only [el, er, eb, eo, hidden2_apply]
  rfl

/-- Entry `(r, j)` of the reference's result. -/
theorem result_apply (x0 : (⟨S16384x4096, .f32⟩ : BufTy).Contents (Elt Ideal)) (x1 : (⟨S4096x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S192, .f32⟩ : BufTy).Contents (Elt Ideal)) (x8 : (⟨S32x4096, .f32⟩ : BufTy).Contents (Elt Ideal)) (x9 : (⟨S4096, .f32⟩ : BufTy).Contents (Elt Ideal)) (r : Fin 16384) (j : Fin 4096) :
    val_main_v23 (F := Ideal) x0 x1 x2 x3 x4 x5 x6 x7 x8 x9 (ix2 r j)
      = ReconArray.entry x0 x1 x2 x3 x4 x5 x6 (val_main_v15 (F := Ideal) x7) x8 x9 r j := by
  rw [val_main_v23_apply, val_main_v20_apply, val_main_v22_apply, val_main_v21_apply]
  have el : ∀ q, lidx_main_v20 (ix2 r j) q = ix2 r q := fun q => funext fun a => Fin.ext (by match a with | ⟨0, _⟩ => rfl | ⟨1, _⟩ => rfl)
  have er : ∀ q, ridx_main_v20 (ix2 r j) q = ix2 q j := fun q => funext fun a => Fin.ext (by match a with | ⟨0, _⟩ => rfl | ⟨1, _⟩ => rfl)
  have eb : idx_main_v21 (idx_main_v22 (ix2 r j)) = ix1 j := funext fun a => Fin.ext (by match a with | ⟨0, _⟩ => rfl)
  simp only [el, er, eb, latent_apply]
  rfl

/-- The reference's result is the reconstructed array of its arguments. -/
theorem result_eq (x0 : (⟨S16384x4096, .f32⟩ : BufTy).Contents (Elt Ideal)) (x1 : (⟨S4096x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S192, .f32⟩ : BufTy).Contents (Elt Ideal)) (x8 : (⟨S32x4096, .f32⟩ : BufTy).Contents (Elt Ideal)) (x9 : (⟨S4096, .f32⟩ : BufTy).Contents (Elt Ideal)) :
    val_main_v23 (F := Ideal) x0 x1 x2 x3 x4 x5 x6 x7 x8 x9
      = ReconArray.arrayOut x0 x1 x2 x3 x4 x5 x6 (val_main_v15 (F := Ideal) x7) x8 x9 := by
  funext i
  obtain ⟨r, j, rfl⟩ : ∃ (r : Fin 16384) (j : Fin 4096), i = ix2 r j := ⟨i 0, i 1, eq_ix2 i⟩
  exact result_apply x0 x1 x2 x3 x4 x5 x6 x7 x8 x9 r j

end Cert.ReferenceIdeal.Rows

end
-- ==== Proof.lean ====
/-
  The kernel and its reference compute the same reconstruction, entry by entry, on the extended reals.

  Both programs send each of the 16384 input rows through the same map: three dense layers
  (`v · W + b`, the first two followed by `max · 0`), a shift of the 32 outputs by an offset vector — the column
  sum of the circuit parameters arranged `6 × 32` —, the cosine, and one decoding layer back to 4096 numbers
  (`RowNetwork.recon`). The reference does this with whole-array operations. The kernel cuts the rows into 32 blocks
  of 512, narrows the weights and the intermediate blocks to bf16 (the identity on the extended reals), multiplies on
  the matrix unit into a zero accumulator (the same sum over the contracted axis as the reference's `dot_general`),
  and stores each block's result as four slabs of 1024 columns. No sum is regrouped or reordered and no factor is moved
  across a sum, so the two sides agree at every extended real: the finiteness of the inputs is not used.

  The kernel's result array is the reconstructed array of its arguments (`Recon.run`: block by block, then the cover);
  the reference's is too (`Rows.result_eq`, over the stages read at an index); their offset vectors are the same
  term. The three frames are the generated runs, and the idealization rewrote nothing, so its conjunct is `True`.
-/
import proofs.«174179_j65481071396601_2_alg».proof.Defs
import proofs.«174179_j65481071396601_2_alg».proof.Proof.Gen.Kernel
import proofs.«174179_j65481071396601_2_alg».proof.Proof.Gen.Kernel.Skeleton
import proofs.«174179_j65481071396601_2_alg».proof.Proof.Gen.Kernel.Launch
import proofs.«174179_j65481071396601_2_alg».proof.Proof.Gen.Kernel.Points
import proofs.«174179_j65481071396601_2_alg».proof.Proof.Gen.Kernel.Frame
import proofs.«174179_j65481071396601_2_alg».proof.Proof.Gen.KernelIdeal
import proofs.«174179_j65481071396601_2_alg».proof.Proof.Gen.KernelIdeal.Skeleton
import proofs.«174179_j65481071396601_2_alg».proof.Proof.Gen.KernelIdeal.Launch
import proofs.«174179_j65481071396601_2_alg».proof.Proof.Gen.KernelIdeal.Points
import proofs.«174179_j65481071396601_2_alg».proof.Proof.Gen.KernelIdeal.Frame
import proofs.«174179_j65481071396601_2_alg».proof.Proof.Gen.ReferenceIdeal
import proofs.«174179_j65481071396601_2_alg».proof.Proof.Gen.Pre_finite_inputs
import proofs.«174179_j65481071396601_2_alg».proof.Proof.Gen.KernelIdeal.Value
import proofs.«174179_j65481071396601_2_alg».proof.Proof.Gen.ReferenceIdeal.Run
import proofs.«174179_j65481071396601_2_alg».proof.Proof.Gen.ReferenceIdeal.Read
import proofs.«174179_j65481071396601_2_alg».proof.Proof.BlocksToArray
import proofs.«174179_j65481071396601_2_alg».proof.Proof.ReferenceRows
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel :=
  fun m ρ _ => Cert.Kernel.Gen.frame m ρ

/-- The idealized kernel runs and leaves its arguments unchanged. -/
theorem frame_kernelIdeal : Cert.frame_KernelIdeal :=
  fun m ρ _ => Cert.KernelIdeal.Gen.frame m ρ

/-- The idealized reference runs and leaves its arguments unchanged: its run, the result forgotten. -/
theorem frame_referenceIdeal : Cert.frame_ReferenceIdeal :=
  fun m ρ _ => (θ_run Cert.ReferenceIdeal.defs _ _).mono (fun _ h c => (h c).2)
    (Cert.ReferenceIdeal.Value.run (F := Ideal) m ρ)

/-- Both idealized programs end with the reconstructed array of the (agreeing) arguments. -/
theorem algebraic : Cert.algebraic_KernelIdeal_ReferenceIdeal := by
  intro m ρ m' ρ' _ hagree
  refine ⟨fun c => Cert.KernelIdeal.Recon.result m c, Cert.KernelIdeal.Recon.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (Cert.ReferenceIdeal.Read.val_main_v23_eq _ _ _ _ _ _ _ _ _ _).trans
    (Cert.ReferenceIdeal.Rows.result_eq _ _ _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
